-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S16x256x128x128 .f32) (main_arg1 : FVec F S16x256 .f32) (main_arg2 : FVec F S16 .f32) (main_arg3 : FVec F S256x16 .f32) (main_arg4 : FVec F S256 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_v13 main_v16
-- ==== Kernel.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S16x256x1x1 : Shape := ⟨4, ![16, 256, 1, 1]⟩
abbrev S16x16x128x128 : Shape := ⟨4, ![16, 16, 128, 128]⟩
abbrev S16x16x1x1 : Shape := ⟨4, ![16, 16, 1, 1]⟩
abbrev S16x16x128 : Shape := ⟨3, ![16, 16, 128]⟩
abbrev S16x16x1x128 : Shape := ⟨4, ![16, 16, 1, 128]⟩
abbrev S16x16x1 : Shape := ⟨3, ![16, 16, 1]⟩
abbrev S16x16 : Shape := ⟨2, ![16, 16]⟩
abbrev S1x16 : Shape := ⟨2, ![1, 16]⟩
abbrev S_ : Shape := ⟨0, ![]⟩
abbrev S1x256 : Shape := ⟨2, ![1, 256]⟩
abbrev S16x8x128x128 : Shape := ⟨4, ![16, 8, 128, 128]⟩
abbrev S16x8x1x1 : Shape := ⟨4, ![16, 8, 1, 1]⟩

abbrev nBuf : Space → Nat
  | .hbm => 32
  | .vmem => 10
  | .smem => 0
  | _ => 0

abbrev bufTy : (tb : Table) → Fin (tcTables nBuf tb) → BufTy
  | .hbm, ⟨0, _⟩ => ⟨S16x256x128x128, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S16x256x1x1, .f32⟩
  | .hbm, ⟨6, _⟩ => ⟨S16x256, .f32⟩
  | .hbm, ⟨7, _⟩ => ⟨S16x16, .f32⟩
  | .hbm, ⟨8, _⟩ => ⟨S1x16, .f32⟩
  | .hbm, ⟨9, _⟩ => ⟨S16x16, .f32⟩
  | .hbm, ⟨10, _⟩ => ⟨S16x16, .f32⟩
  | .hbm, ⟨11, _⟩ => ⟨S_, .f32⟩
  | .hbm, ⟨12, _⟩ => ⟨S16x16, .f32⟩
  | .hbm, ⟨13, _⟩ => ⟨S16x16, .i1⟩
  | .hbm, ⟨14, _⟩ => ⟨S_, .f32⟩
  | .hbm, ⟨15, _⟩ => ⟨S16x16, .f32⟩
  | .hbm, ⟨16, _⟩ => ⟨S16x16, .f32⟩
  | .hbm, ⟨17, _⟩ => ⟨S16x16, .f32⟩
  | .hbm, ⟨18, _⟩ => ⟨S16x256, .f32⟩
  | .hbm, ⟨19, _⟩ => ⟨S1x256, .f32⟩
  | .hbm, ⟨20, _⟩ => ⟨S16x256, .f32⟩
  | .hbm, ⟨21, _⟩ => ⟨S16x256, .f32⟩
  | .hbm, ⟨22, _⟩ => ⟨S16x256, .f32⟩
  | .hbm, ⟨23, _⟩ => ⟨S16x256, .f32⟩
  | .hbm, ⟨24, _⟩ => ⟨S_, .f32⟩
  | .hbm, ⟨25, _⟩ => ⟨S16x256, .f32⟩
  | .hbm, ⟨26, _⟩ => ⟨S16x256, .f32⟩
  | .hbm, ⟨27, _⟩ => ⟨S_, .f32⟩
  | .hbm, ⟨28, _⟩ => ⟨S16x256, .f32⟩
  | .hbm, ⟨29, _⟩ => ⟨S16x256, .f32⟩
  | .hbm, ⟨30, _⟩ => ⟨S16x256x1x1, .f32⟩
  | .hbm, ⟨31, _⟩ => ⟨S16x256x128x128, .f32⟩
  | .local _ .vmem, ⟨0, _⟩ => ⟨S16x16x128x128, .f32⟩
  | .local _ .vmem, ⟨1, _⟩ => ⟨S16x16x128x128, .f32⟩
  | .local _ .vmem, ⟨2, _⟩ => ⟨S16x16x1x1, .f32⟩
  | .local _ .vmem, ⟨3, _⟩ => ⟨S16x16x1x1, .f32⟩
  | .local _ .vmem, ⟨4, _⟩ => ⟨S16x8x128x128, .f32⟩
  | .local _ .vmem, ⟨5, _⟩ => ⟨S16x8x128x128, .f32⟩
  | .local _ .vmem, ⟨6, _⟩ => ⟨S16x8x1x1, .f32⟩
  | .local _ .vmem, ⟨7, _⟩ => ⟨S16x8x1x1, .f32⟩
  | .local _ .vmem, ⟨8, _⟩ => ⟨S16x8x128x128, .f32⟩
  | .local _ .vmem, ⟨9, _⟩ => ⟨S16x8x128x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S16x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S16x8x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x8x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x8x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S16x16x128x128_S16x16x128x128_0_0_0_0 : ∀ a, (![0, 0, 0, 0] : Fin 4 → Nat) a + S16x16x128x128.size a ≤ S16x16x128x128.size a
  h_S16x16x128x128 : 0 < S16x16x128x128.numel
  reduces_S16x16x128x128_S16x16x128 : S16x16x128x128.Reduces [2] S16x16x128
  shapeCasts_S16x16x128_S16x16x1x128 : S16x16x128.ShapeCasts S16x16x1x128
  reduces_S16x16x1x128_S16x16x1 : S16x16x1x128.Reduces [3] S16x16x1
  shapeCasts_S16x16x1_S16x16x1x1 : S16x16x1.ShapeCasts S16x16x1x1
  inb_S16x16x1x1_S16x16x1x1_0_0_0_0 : ∀ a, (![0, 0, 0, 0] : Fin 4 → Nat) a + S16x16x1x1.size a ≤ S16x16x1x1.size a
  h_S16x16x1x1 : 0 < S16x16x1x1.numel
  shapeCasts_S16x256x1x1_S16x256 : S16x256x1x1.ShapeCasts S16x256
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  shapeCasts_S16x256_S16x256x1x1 : S16x256.ShapeCasts S16x256x1x1
  inb_S16x8x128x128_S16x8x128x128_0_0_0_0 : ∀ a, (![0, 0, 0, 0] : Fin 4 → Nat) a + S16x8x128x128.size a ≤ S16x8x128x128.size a
  h_S16x8x128x128 : 0 < S16x8x128x128.numel
  inb_S16x8x1x1_S16x8x1x1_0_0_0_0 : ∀ a, (![0, 0, 0, 0] : Fin 4 → Nat) a + S16x8x1x1.size a ≤ S16x8x1x1.size a
  h_S16x8x1x1 : 0 < S16x8x1x1.numel
  shapeCasts_S16x8x1x1_S16x8x1x1 : S16x8x1x1.ShapeCasts S16x8x1x1
  broadcasts_S16x8x1x1_S16x8x128x128 : S16x8x1x1.Broadcasts S16x8x128x128
  dot_S16x256_S16x256_S16x16_1_1_0_0_n_n_wf : DotDims.WF S16x256 S16x256 S16x16 [1] [1] [0] [0] [] []
  dot_S16x16_S256x16_S16x256_1_1_0_0_n_n_wf : DotDims.WF S16x16 S256x16 S16x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x16x128x128.size a ≤ S16x256x128x128.size a
  hwx0_0 : ∀ i : grid0.Coords, EltTy.bits .f32 = 32 ∨ (Rect.block (s := S16x256x128x128) S16x16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x16x1x1.size a ≤ S16x256x1x1.size a
  hwx0_1 : ∀ i : grid0.Coords, EltTy.bits .f32 = 32 ∨ (Rect.block (s := S16x256x1x1) S16x16x1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x8x128x128.size a ≤ S16x256x128x128.size a
  hwx1_0 : ∀ i : grid1.Coords, EltTy.bits .f32 = 32 ∨ (Rect.block (s := S16x256x128x128) S16x8x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x8x1x1.size a ≤ S16x256x1x1.size a
  hwx1_1 : ∀ i : grid1.Coords, EltTy.bits .f32 = 32 ∨ (Rect.block (s := S16x256x1x1) S16x8x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x8x128x128.size a ≤ S16x256x128x128.size a
  hwx1_2 : ∀ i : grid1.Coords, EltTy.bits .f32 = 32 ∨ (Rect.block (s := S16x256x128x128) S16x8x128x128.size (cc1_transform_2 i) (hinb1_2 i)).WholeWords (EltTy.packing .f32)

variable [Facts₀]

def dot_S16x256_S16x256_S16x16_1_1_0_0_n_n : DotDims S16x256 S16x256 S16x16 where
  lhsContracting := [1]
  rhsContracting := [1]
  lhsNonContracting := [0]
  rhsNonContracting := [0]
  lhsBatch := []
  rhsBatch := []
  wf := dot_S16x256_S16x256_S16x16_1_1_0_0_n_n_wf
def dot_S16x16_S256x16_S16x256_1_1_0_0_n_n : DotDims S16x16 S256x16 S16x256 where
  lhsContracting := [1]
  rhsContracting := [1]
  lhsNonContracting := [0]
  rhsNonContracting := [0]
  lhsBatch := []
  rhsBatch := []
  wf := dot_S16x16_S256x16_S16x256_1_1_0_0_n_n_wf

abbrev win0_0 : Pipeline.Window sig grid0 :=
  Pipeline.Window.ofSpec (Memref.whole main_arg0) S16x16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x16x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S16x8x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S16x8x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S16x8x128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where
  halias1_2 : Pipeline.Aliased win1 0 2

variable [Facts]
-- ==== ReferenceIdeal.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩
abbrev S16x16 : Shape := ⟨2, ![16, 16]⟩
abbrev S1x16 : Shape := ⟨2, ![1, 16]⟩
abbrev S1x256 : Shape := ⟨2, ![1, 256]⟩
abbrev S16x256x1x1 : Shape := ⟨4, ![16, 256, 1, 1]⟩

abbrev nBuf : Space → Nat
  | .hbm => 36
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S_, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x16, .f32⟩
  | .hbm, ⟨11, _⟩ => ⟨S1x16, .f32⟩
  | .hbm, ⟨12, _⟩ => ⟨S16x16, .f32⟩
  | .hbm, ⟨13, _⟩ => ⟨S16x16, .f32⟩
  | .hbm, ⟨14, _⟩ => ⟨S_, .f32⟩
  | .hbm, ⟨15, _⟩ => ⟨S16x16, .f32⟩
  | .hbm, ⟨16, _⟩ => ⟨S16x16, .i1⟩
  | .hbm, ⟨17, _⟩ => ⟨S_, .f32⟩
  | .hbm, ⟨18, _⟩ => ⟨S16x16, .f32⟩
  | .hbm, ⟨19, _⟩ => ⟨S16x16, .f32⟩
  | .hbm, ⟨20, _⟩ => ⟨S16x16, .f32⟩
  | .hbm, ⟨21, _⟩ => ⟨S16x256, .f32⟩
  | .hbm, ⟨22, _⟩ => ⟨S1x256, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S16x256, .f32⟩
  | .hbm, ⟨27, _⟩ => ⟨S_, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256x1x1, .f32⟩
  | .hbm, ⟨34, _⟩ => ⟨S16x256x128x128, .f32⟩
  | .hbm, ⟨35, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  reducesTo_S16x256x128x128_S16x256_d2_3 : S16x256x128x128.ReducesTo [2, 3] S16x256
  h_S_ : 0 < S_.numel
  bcast_S_S16x256 : S_.BroadcastsInDim S16x256 (![] : Fin 0 → Fin S16x256.rank)
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S16x256_S16x256x1x1_0_1 : S16x256.BroadcastsInDim S16x256x1x1 (![0, 1] : Fin 2 → Fin S16x256x1x1.rank)
  bcast_S16x256x1x1_S16x256x128x128_0_1_2_3 : S16x256x1x1.BroadcastsInDim S16x256x128x128 (![0, 1, 2, 3] : Fin 4 → Fin S16x256x128x128.rank)
  dot_S16x256_S16x256_S16x16_1_1_0_0_n_n_wf : DotDims.WF S16x256 S16x256 S16x16 [1] [1] [0] [0] [] []
  dot_S16x16_S256x16_S16x256_1_1_0_0_n_n_wf : DotDims.WF S16x16 S256x16 S16x256 [1] [1] [0] [0] [] []

variable [Facts₀]

def dot_S16x256_S16x256_S16x16_1_1_0_0_n_n : DotDims S16x256 S16x256 S16x16 where
  lhsContracting := [1]
  rhsContracting := [1]
  lhsNonContracting := [0]
  rhsNonContracting := [0]
  lhsBatch := []
  rhsBatch := []
  wf := dot_S16x256_S16x256_S16x16_1_1_0_0_n_n_wf
def dot_S16x16_S256x16_S16x256_1_1_0_0_n_n : DotDims S16x16 S256x16 S16x256 where
  lhsContracting := [1]
  rhsContracting := [1]
  lhsNonContracting := [0]
  rhsNonContracting := [0]
  lhsBatch := []
  rhsBatch := []
  wf := dot_S16x16_S256x16_S16x256_1_1_0_0_n_n_wf

class Facts : Prop extends Facts₀ where

variable [Facts]
-- ==== Proof.KernelRun.lean ====
import proofs.«106926_j14757507629900_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the two regions and the host operations between them, with the RESULT read too: every weakly fair
    execution terminates, nothing faulting, the result buffer holding what the last boundary's fold `W5` has at it
    (the second region's output array after its 32 write-backs), and the five arguments as launched. -/
theorem run_result : θ_run defs (onTc (τ := τ) (main (F := F))) ⟨m, fun _ => 0, ρ⟩ (fun r => ∀ c : Dev nD,
      r.2.mem ((c.tc : Thread nD τ).loc main_v22) = W5 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v22 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.RunValue

end
-- ==== Proof.PoolLaw.lean ====
import Idealize.ShloMosaic.PureOps.Ideal
import Idealize.ShloMosaic.PureOps.Ideal.Laws
import Idealize.ShloMosaic.PureOps.Reduce
import Idealize.ShloMosaic.Lib.ValueIdx

noncomputable section

namespace Cert.PoolLaw

open Idealize.ShloMosaic Idealize.ShloMosaic.ValueIdx

/-- The image batch's shape and the shape of its per-channel means. -/
abbrev Sx : Shape := ⟨4, ![16, 256, 128, 128]⟩
abbrev Sp : Shape := ⟨2, ![16, 256]⟩

/-- The pattern of `2⁻¹⁴` denotes the real `1 / 16384`. -/
theorem ofBits_inv : Ideal.ofBits .f32 0x38800000#32 = (((1 : ℝ) / 16384 : ℝ) : EReal) := by
  simp [Ideal.ofBits, Ideal.ieee, -EReal.coe_mul]; norm_num

/-- The pattern of `2¹⁴` denotes the real `16384`. -/
theorem ofBits_n : Ideal.ofBits .f32 0x46800000#32 = ((16384 : ℝ) : EReal) := by
  simp [Ideal.ofBits, Ideal.ieee, -EReal.coe_mul]; norm_num

/-- The indices of the batch that a sum over the two spatial axes sends to image `b`, channel `q` are exactly the
    128 × 128 positions of that image's channel: the sum over them is the iterated sum, columns outside, rows inside. -/
theorem sum_filter_drop (x : Sx.Idx → EReal) (h' : Sx.ReducesTo [2, 3] Sp) (b : Fin 16) (q : Fin 256) :
    ∑ i ∈ Finset.univ.filter (fun i => h'.drop i = ix2 b q), x i = ∑ w : Fin 128, ∑ h : Fin 128, x (ix4 b q h w) := by
  rw [← Fintype.sum_prod_type' (f := fun (w : Fin 128) (h : Fin 128) => x (ix4 b q h w))]
  have key : ∀ i ∈ Finset.univ.filter (fun i => h'.drop i = ix2 b q), ix4 b q (i 2 : Fin 128) (i 3 : Fin 128) = i := by
    intro i hi
    have hj := (Finset.mem_filter.1 hi).2
    have h0 : (i 0 : Nat) = b.val := by
      rw [← h'.drop_apply_val_of_eq i 0 0, hj]
    have h1 : (i 1 : Nat) = q.val := by
      rw [← h'.drop_apply_val_of_eq i 1 1, hj]
    funext a
    apply Fin.ext
    match a with
    | ⟨0, _⟩ => exact h0.symm
    | ⟨1, _⟩ => exact h1.symm
    | ⟨2, _⟩ => rfl
    | ⟨3, _⟩ => rfl
  refine Finset.sum_nbij' (fun i => ((i 3 : Fin 128), (i 2 : Fin 128))) (fun p => ix4 b q p.2 p.1) ?_ ?_ ?_ ?_ ?_
  · intro i _; exact Finset.mem_univ _
  · intro p _
    refine Finset.mem_filter.2 ⟨Finset.mem_univ _, ?_⟩
    funext a
    apply Fin.ext
    match a with
    | ⟨0, _⟩ => exact h'.drop_apply_val_of_eq (ix4 b q p.2 p.1) 0 0
    | ⟨1, _⟩ => exact h'.drop_apply_val_of_eq (ix4 b q p.2 p.1) 1 1
  · intro i hi; exact key i hi
  · intro p _; rfl
  · intro i hi; exact congrArg x (key i hi).symm

/-- THE LAW that joins the two programs' pooled means: the iterated sum of a channel's 128 × 128 values times
    `2⁻¹⁴` is the host's sum over the two spatial axes (from the initial value `0`) divided by `16384` — on every
    extended real, since dividing by a nonzero real is multiplying by its reciprocal at the infinities too. -/
theorem pool_law (x : Sx.Idx → EReal) (h' : Sx.ReducesTo [2, 3] Sp) (b : Fin 16) (q : Fin 256) :
    (∑ w : Fin 128, ∑ h : Fin 128, x (ix4 b q h w)) * Ideal.ofBits .f32 0x38800000#32
      = Ideal.div (Ideal.hostReduceAdd h' x (Ideal.ofBits .f32 0x00000000#32) (ix2 b q)) (Ideal.ofBits .f32 0x46800000#32) := by
  rw [ofBits_inv, ofBits_n, Ideal.div_coe (by norm_num : (16384 : ℝ) ≠ 0)]
  unfold Ideal.hostReduceAdd
  rw [Ideal.ofBits_zero_f32, zero_add, sum_filter_drop]

end Cert.PoolLaw

end
-- ==== Proof.HostMiddle.lean ====
import proofs.«106926_j14757507629900_2_alg».proof.Proof.Gen.KernelIdeal.Frame
import Idealize.ShloMosaic.Lib.StableHlo.Run
import Idealize.ShloMosaic.PureOps.Ideal
import Idealize.ShloMosaic.Lib.ValueIdx
import proofs.«106926_j14757507629900_2_alg».proof.Proof.PoolLaw

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-- The excitation gate as the host computes it from the pooled means `p` (one per image and channel): the first
    dense layer `p · w1ᵀ + b1` over the 256 channels, the leaky rectifier with slope 0.01 (the comparison with zero
    selecting the value itself or its product with the slope), the second dense layer `· w2ᵀ + b2` over the 16 hidden
    units, and the logistic function written `1 / (1 + exp (-·))`. Both programs apply exactly this term to their
    pooled means, so it is never opened. -/
def gate (p : FVec Ideal S16x256 .f32) (w1 : FVec Ideal S16x256 .f32) (b1 : FVec Ideal S16 .f32)
    (w2 : FVec Ideal S256x16 .f32) (b2 : FVec Ideal S256 .f32) : FVec Ideal S16x256 .f32 :=
  Host.divf (broadcastInDim S16x256 ![] bcast_S_S16x256 (constant S_ .f32 0x3F800000#32))
    (addf (broadcastInDim S16x256 ![] bcast_S_S16x256 (constant S_ .f32 0x3F800000#32))
      (Host.exp (Host.negf (addf
        (Host.dotGeneral dot_S16x16_S256x16_S16x256_1_1_0_0_n_n none
          (select
            (cmpf .oge
              (addf (Host.dotGeneral dot_S16x256_S16x256_S16x16_1_1_0_0_n_n none p w1)
                (broadcastInDim S16x16 ![0, 1] bcast_S1x16_S16x16_0_1 (broadcastInDim S1x16 ![1] bcast_S16_S1x16_1 b1)))
              (broadcastInDim S16x16 ![] bcast_S_S16x16 (constant S_ .f32 0x00000000#32)))
            (addf (Host.dotGeneral dot_S16x256_S16x256_S16x16_1_1_0_0_n_n none p w1)
              (broadcastInDim S16x16 ![0, 1] bcast_S1x16_S16x16_0_1 (broadcastInDim S1x16 ![1] bcast_S16_S1x16_1 b1)))
            (mulf (broadcastInDim S16x16 ![] bcast_S_S16x16 (constant S_ .f32 0x3C23D70A#32))
              (addf (Host.dotGeneral dot_S16x256_S16x256_S16x16_1_1_0_0_n_n none p w1)
                (broadcastInDim S16x16 ![0, 1] bcast_S1x16_S16x16_0_1 (broadcastInDim S1x16 ![1] bcast_S16_S1x16_1 b1)))))
          w2)
        (broadcastInDim S16x256 ![0, 1] bcast_S1x256_S16x256_0_1 (broadcastInDim S1x256 ![1] bcast_S256_S1x256_1 b2))))))

/-- THE SPECIFICATION both programs meet: each value of the batch times the gate of its image and channel, the gate
    taken of the per-channel means written as the reference writes them — the sum over the two spatial axes from the
    initial value `0`, divided by `16384`. -/
def excite (h' : Cert.PoolLaw.Sx.ReducesTo [2, 3] Cert.PoolLaw.Sp) (x : FVec Ideal S16x256x128x128 .f32)
    (w1 : FVec Ideal S16x256 .f32) (b1 : FVec Ideal S16 .f32) (w2 : FVec Ideal S256x16 .f32) (b2 : FVec Ideal S256 .f32) :
    FVec Ideal S16x256x128x128 .f32 :=
  fun i => x i * gate (fun j => Ideal.div (Ideal.hostReduceAdd h' x (Ideal.ofBits .f32 0x00000000#32) j) (Ideal.ofBits .f32 0x46800000#32))
    w1 b1 w2 b2 (ValueIdx.ix2 (i 0) (i 1))

variable (m : (ℓ : Loc nD τ sig) → Buf (Elt Ideal) ℓ) (ρ : Dev nD → PrngReg)

/-- When the second region is entered, its gate operand holds the gate of the first region's output array (both
    through the reshapes between [16,256,1,1] and [16,256]) and of the weight arguments as the first region left them. -/
theorem v21_eq (c : Dev nD) :
    W4 m ρ c (Proc.devRef .tc main_v21)
      = shapeCast S16x256x1x1 (gate (shapeCast S16x256 (W1 m ρ c (Proc.devRef .tc main_v0)) shapeCasts_S16x256x1x1_S16x256)
          (W1 m ρ c (Proc.devRef .tc main_arg1)) (W1 m ρ c (Proc.devRef .tc main_arg2))
          (W1 m ρ c (Proc.devRef .tc main_arg3)) (W1 m ρ c (Proc.devRef .tc main_arg4))) shapeCasts_S16x256_S16x256x1x1 := by
  dsimp only [W4, W3, W2, hostOps1, hostOps1_1, hostOps1_2]
  after_results_simp
  rfl

end Cert.KernelIdeal.HostValue

end
-- ==== Proof.PoolArray.lean ====
import proofs.«106926_j14757507629900_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PoolValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The sum over axis 2 of a [16,16,128,128] block, at (p, q, w): the sum over the coordinate h of axis 2. -/
theorem sum_axis2_apply (x0 : Vec Ideal S16x16x128x128 .f32)
    (hred : S16x16x128x128.Reduces [2] S16x16x128)
    (hacc : (0x00000000#32 : BitVec 32) = 0x00000000#32) (p q : Fin 16) (w : Fin 128) :
    multiReduction (F := Ideal) .add [2] S16x16x128 x0 0x00000000#32 hred (.inl rfl) hacc (ix3 p q w)
      = ∑ h : Fin 128, x0 (ix4 p q h w) := by
  refine (Ideal.multiReduction_add_single x0 0x00000000#32 hred (.inl rfl) hacc (ix3 p q w)).trans ?_
  refine Finset.sum_congr rfl fun h _ => congrArg x0 ?_
  funext a; apply Fin.ext
  match a with
  | ⟨0, _⟩ => rfl
  | ⟨1, _⟩ => rfl
  | ⟨2, _⟩ => rfl
  | ⟨3, _⟩ => rfl

/-- The sum over axis 3 of a [16,16,1,128] vector, at (p, q, 0): the sum over the coordinate w of axis 3. -/
theorem sum_axis3_apply (x1 : Vec Ideal S16x16x1x128 .f32)
    (hred : S16x16x1x128.Reduces [3] S16x16x1)
    (hacc : (0x00000000#32 : BitVec 32) = 0x00000000#32) (p q : Fin 16) :
    multiReduction (F := Ideal) .add [3] S16x16x1 x1 0x00000000#32 hred (.inl rfl) hacc (ix3 p q (0 : Fin 1))
      = ∑ w : Fin 128, x1 (ix4 p q (0 : Fin 1) w) := by
  refine (Ideal.multiReduction_add_single x1 0x00000000#32 hred (.inl rfl) hacc (ix3 p q (0 : Fin 1))).trans ?_
  refine Finset.sum_congr rfl fun w _ => congrArg x1 ?_
  funext a; apply Fin.ext
  match a with
  | ⟨0, _⟩ => rfl
  | ⟨1, _⟩ => rfl
  | ⟨2, _⟩ => rfl
  | ⟨3, _⟩ => rfl

/-- The cast [16,16,128] → [16,16,1,128] only inserts a unit axis: at (p, q, 0, w) it reads (p, q, w). -/
theorem cast_3_to_4_apply (x1 : Vec Ideal S16x16x128 .f32) (hc : S16x16x128.ShapeCasts S16x16x1x128)
    (p q : Fin 16) (w : Fin 128) :
    shapeCast S16x16x1x128 x1 hc (ix4 p q (0 : Fin 1) w) = x1 (ix3 p q w) := by
  refine shapeCast_apply x1 hc _ (ix3 p q w) ?_
  rw [Shape.rowMajor_val_three, Shape.rowMajor_val_four]
  show (p.val * 16 + q.val) * 128 + w.val = ((p.val * 16 + q.val) * 1 + 0) * 128 + w.val
  omega

/-- The cast [16,16,1] → [16,16,1,1] only appends a unit axis: at (p, q, 0, 0) it reads (p, q, 0). -/
theorem cast_1_to_11_apply (x3 : Vec Ideal S16x16x1 .f32) (hc : S16x16x1.ShapeCasts S16x16x1x1)
    (p q : Fin 16) :
    shapeCast S16x16x1x1 x3 hc (ix4 p q (0 : Fin 1) (0 : Fin 1)) = x3 (ix3 p q (0 : Fin 1)) := by
  refine shapeCast_apply x3 hc _ (ix3 p q (0 : Fin 1)) ?_
  rw [Shape.rowMajor_val_three, Shape.rowMajor_val_four]
  show (p.val * 16 + q.val) * 1 + 0 = ((p.val * 16 + q.val) * 1 + 0) * 1 + 0
  omega

/-- THE BODY'S PAYLOAD AT AN INDEX: the block summed over axis 2 (h) and then over axis 3 (w), scaled. -/
theorem pool_payload (x0 : Vec Ideal S16x16x128x128 .f32) (p q : Fin 16) :
    k0_pay1 (F := Ideal) x0 (ix4 p q (0 : Fin 1) (0 : Fin 1))
      = (∑ w : Fin 128, ∑ h : Fin 128, x0 (ix4 p q h w)) * Ideal.ofBits .f32 0x38800000#32 := by
  unfold k0_pay1
  dsimp only
  rw [mulf_apply, broadcast_apply, cast_1_to_11_apply, sum_axis3_apply]
  refine congrArg₂ (· * ·) (Finset.sum_congr rfl fun w _ => ?_) rfl
  rw [cast_3_to_4_apply, sum_axis2_apply]

/-- The payload at any index of the [16,16,1,1] block (its two unit coordinates are 0). -/
theorem pool_payload_idx (x0 : Vec Ideal S16x16x128x128 .f32) (j : S16x16x1x1.Idx) :
    k0_pay1 (F := Ideal) x0 j
      = (∑ w : Fin 128, ∑ h : Fin 128, x0 (ix4 (j 0 : Fin 16) (j 1 : Fin 16) h w)) * Ideal.ofBits .f32 0x38800000#32 := by
  obtain ⟨p, q, r, s, rfl⟩ : ∃ (p q : Fin 16) (r s : Fin 1), j = ix4 p q r s := ⟨j 0, j 1, j 2, j 3, eq_ix4 j⟩
  obtain rfl : r = 0 := Subsingleton.elim _ _
  obtain rfl : s = 0 := Subsingleton.elim _ _
  exact pool_payload x0 p q

/-- The pooled array as ONE function of the input array: at (b, q, ·, ·) the sum over w of the sum over h of the
    input at (b, q, h, w), scaled. -/
def poolG (x : S16x256x128x128.Idx → EReal) : S16x256x1x1.Idx → EReal := fun i =>
  (∑ w : Fin 128, ∑ h : Fin 128, x (ix4 (i 0 : Fin 16) (i 1 : Fin 256) h w)) * Ideal.ofBits .f32 0x38800000#32

theorem zero_offsets : (![0, 0, 0, 0] : Fin 4 → Nat) = fun _ => 0 := funext fun a => by fin_cases a <;> rfl

/-- The two windows' index maps, decided over the 16 grid points: both move along axis 1 with the point and stay at
    0 on the other axes. -/
theorem index_facts : ∀ t : Fin cfg0.N, win0_0.index t (0 : Fin 4) = 0 ∧ win0_0.index t (1 : Fin 4) = t.val
    ∧ win0_0.index t (2 : Fin 4) = 0 ∧ win0_0.index t (3 : Fin 4) = 0
    ∧ win0_1.index t (0 : Fin 4) = 0 ∧ win0_1.index t (1 : Fin 4) = t.val
    ∧ win0_1.index t (2 : Fin 4) = 0 ∧ win0_1.index t (3 : Fin 4) = 0 :=
  (by decide +kernel : ∀ t : Fin grid0.N, _)

/-- WHAT POINT t WRITES BACK is block t of the pooled array of the input array as the region finds it. -/
theorem pool_flushed (c : Dev nD) (t : Fin cfg0.N) :
    (dat0 (F := Ideal) V c).flushed 1 t = ((cfg0.win 1).blk t).view.read (Elt Ideal) (poolG (V c main_arg0)) := by
  show (cfg0.win 1).cut (grid0.coords t) ((dat0 V c).after 1 t) = _
  rw [after0_1]
  unfold out0_1
  rw [View.canon_unit_zero zero_offsets]
  simp only [View.ld_unit_zero (S := S16x16x128x128) zero_offsets]
  obtain ⟨e0, e1, e2, e3, f0, f1, f2, f3⟩ := index_facts t
  refine funext fun (j : S16x16x1x1.Idx) => ?_
  show k0_pay1 (F := Ideal) (iblk0 V c 0 t) j = poolG (V c main_arg0) (((cfg0.win 1).blk t).view.emb j)
  rw [pool_payload_idx]
  unfold poolG
  refine congrArg₂ (· * ·) (Finset.sum_congr rfl fun w _ => Finset.sum_congr rfl fun h _ => ?_) rfl
  show V c main_arg0 (((cfg0.win 0).blk t).view.emb (ix4 (j 0 : Fin 16) (j 1 : Fin 16) h w)) = _
  refine congrArg (V c main_arg0) (funext fun a => Fin.ext ?_)
  match a with
  | ⟨0, _⟩ => show win0_0.index t (0 : Fin 4) * 16 + 1 * (j 0).val = win0_1.index t (0 : Fin 4) * 16 + 1 * (j 0).val; omega
  | ⟨1, _⟩ => show win0_0.index t (1 : Fin 4) * 16 + 1 * (j 1).val = win0_1.index t (1 : Fin 4) * 16 + 1 * (j 1).val; omega
  | ⟨2, _⟩ => show win0_0.index t (2 : Fin 4) * 128 + 1 * h.val = h.val; omega
  | ⟨3, _⟩ => show win0_0.index t (3 : Fin 4) * 128 + 1 * w.val = w.val; omega

/-- An index of the array is in point t's block iff each coordinate is in the block's range on its axis. -/
theorem mem_block (t : Fin cfg0.N) (i : S16x256x1x1.Idx) :
    i ∈ ((cfg0.win 1).blk t).view.set ↔ ∀ a : Fin 4, win0_1.index t a * S16x16x1x1.size a ≤ (i a).val
      ∧ (i a).val < win0_1.index t a * S16x16x1x1.size a + S16x16x1x1.size a := by
  show i ∈ ((View.whole main_v0).slice (win0_1.rect t)).set ↔ _
  rw [View.set_slice_whole, Rect.mem_set_unit]
  exact Iff.rfl

/-- The blocks tile the array: channel q lies in the block of point q / 16, which writes back. -/
theorem pool_cover (i : S16x256x1x1.Idx) :
    ∃ t : Fin cfg0.N, (cfg0.win 1).flush t = true ∧ i ∈ ((cfg0.win 1).blk t).view.set := by
  have h0 : (i 0).val < 16 := (i 0).isLt
  have h1 : (i 1).val < 256 := (i 1).isLt
  have h2 : (i 2).val < 1 := (i 2).isLt
  have h3 : (i 3).val < 1 := (i 3).isLt
  have hN : cfg0.N = 16 := N_0
  obtain ⟨t, ht⟩ : ∃ t : Fin cfg0.N, t.val = (i 1).val / 16 := ⟨⟨(i 1).val / 16, by omega⟩, rfl⟩
  obtain ⟨e0, e1, e2, e3, f0, f1, f2, f3⟩ := index_facts t
  refine ⟨t, flush0_1 t, ?_⟩
  rw [mem_block]
  intro a
  match a with
  | ⟨0, _⟩ => show win0_1.index t (0 : Fin 4) * 16 ≤ (i 0).val ∧ (i 0).val < win0_1.index t (0 : Fin 4) * 16 + 16; omega
  | ⟨1, _⟩ => show win0_1.index t (1 : Fin 4) * 16 ≤ (i 1).val ∧ (i 1).val < win0_1.index t (1 : Fin 4) * 16 + 16; omega
  | ⟨2, _⟩ => show win0_1.index t (2 : Fin 4) * 1 ≤ (i 2).val ∧ (i 2).val < win0_1.index t (2 : Fin 4) * 1 + 1; omega
  | ⟨3, _⟩ => show win0_1.index t (3 : Fin 4) * 1 ≤ (i 3).val ∧ (i 3).val < win0_1.index t (3 : Fin 4) * 1 + 1; omega

/-- THE ARRAY after the 16 points: the pooled array of the input array as the region finds it. -/
theorem pool_final (c : Dev nD) : (dat0 (F := Ideal) V c).arrAt 1 cfg0.N = poolG (V c main_arg0) :=
  (dat0 (F := Ideal) V c).arrAt_eq_of_cover 1 (poolG (V c main_arg0)) (fun t _ => pool_flushed V c t) pool_cover

/-- REGION 0's output array as one function of its input array: at (b, q, 0, 0) the sum over w of the sum over h of
    the input at (b, q, h, w), times the scalar with bits 0x38800000. -/
theorem pool_array (c : Dev nD) (x : S16x256x128x128.Idx → EReal) (hx : V c main_arg0 = x) (b : Fin 16) (q : Fin 256) :
    (dat0 (F := Ideal) V c).arrAt 1 cfg0.N (ix4 b q (0 : Fin 1) (0 : Fin 1))
      = (∑ w : Fin 128, ∑ h : Fin 128, x (ix4 b q h w)) * Ideal.ofBits .f32 0x38800000#32 := by
  subst hx
  exact congrFun (pool_final V c) (ix4 b q (0 : Fin 1) (0 : Fin 1))

end Cert.KernelIdeal.PoolValue

end
-- ==== Proof.ScaleArray.lean ====
import proofs.«106926_j14757507629900_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ScaleValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a rank-4 rectangle, however spelt. -/
theorem zero_offsets4 : (![0, 0, 0, 0] : Fin 4 → Nat) = fun _ => 0 := funext fun a => by fin_cases a <;> rfl

/-- The payload at an index: the x block's entry times the scale block's entry of the same batch and channel. -/
theorem scale_payload_apply (x0 : Vec Ideal S16x8x128x128 .f32) (x1 : Vec Ideal S16x8x1x1 .f32)
    (p : Fin 16) (q : Fin 8) (h w : Fin 128) :
    k1_pay1 x0 x1 (ix4 p q h w) = x0 (ix4 p q h w) * x1 (ix4 p q (0 : Fin 1) (0 : Fin 1)) := by
  unfold k1_pay1
  rw [mulf_apply, shapeCast_self]
  rw [broadcastTo_apply x1 broadcasts_S16x8x1x1_S16x8x128x128 (ix4 p q h w) (ix4 p q (0 : Fin 1) (0 : Fin 1)) (fun a => by
    match a with
    | ⟨0, _⟩ => rfl
    | ⟨1, _⟩ => rfl
    | ⟨2, _⟩ => rfl
    | ⟨3, _⟩ => rfl)]

/-- The payload as a function of the block index. -/
theorem scale_payload_eq (x0 : Vec Ideal S16x8x128x128 .f32) (x1 : Vec Ideal S16x8x1x1 .f32) :
    k1_pay1 x0 x1 = fun j : S16x8x128x128.Idx =>
      x0 j * x1 (ix4 (⟨(j 0).val, (j 0).isLt⟩ : Fin 16) (⟨(j 1).val, (j 1).isLt⟩ : Fin 8) (0 : Fin 1) (0 : Fin 1)) := by
  funext j
  obtain ⟨p, q, h, w, rfl⟩ : ∃ (p : Fin 16) (q : Fin 8) (h : Fin 128) (w : Fin 128), j = ix4 p q h w :=
    ⟨j 0, j 1, j 2, j 3, eq_ix4 j⟩
  exact scale_payload_apply x0 x1 p q h w

/-- The whole output array as one function of the two input arrays: entry (b, q, h, w) of x times entry (b, q, 0, 0) of s. -/
abbrev scaled (x : S16x256x128x128.Idx → EReal) (s : S16x256x1x1.Idx → EReal) : S16x256x128x128.Idx → EReal :=
  fun i => x i * s (ix4 (⟨(i 0).val, (i 0).isLt⟩ : Fin 16) (⟨(i 1).val, (i 1).isLt⟩ : Fin 256) (0 : Fin 1) (0 : Fin 1))

/-- The three index maps over the grid: every window's block index is (0, t, 0, 0) at point t. -/
theorem scale_index_maps : ∀ t : Fin cfg1.N,
    win1_0.index t (0 : Fin 4) = 0 ∧ win1_0.index t (1 : Fin 4) = t.val ∧ win1_0.index t (2 : Fin 4) = 0 ∧ win1_0.index t (3 : Fin 4) = 0
    ∧ win1_1.index t (0 : Fin 4) = 0 ∧ win1_1.index t (1 : Fin 4) = t.val ∧ win1_1.index t (2 : Fin 4) = 0 ∧ win1_1.index t (3 : Fin 4) = 0
    ∧ win1_2.index t (0 : Fin 4) = 0 ∧ win1_2.index t (1 : Fin 4) = t.val ∧ win1_2.index t (2 : Fin 4) = 0 ∧ win1_2.index t (3 : Fin 4) = 0
    ∧ t.val ≤ 31 :=
  (by decide +kernel : ∀ t : Fin grid1.N, _)

/-- Block t of the x window and block t of the scale window, read where block t of the output window says, give `scaled` there:
    a block's coordinate is its index times its size plus the coordinate inside the block, and the three windows have
    the same block index (0, t, 0, 0). -/
theorem scale_block_eq (X : S16x256x128x128.Idx → EReal) (S' : S16x256x1x1.Idx → EReal) (t : Fin cfg1.N)
    (j : S16x8x128x128.Idx) :
    X (((cfg1.win 0).blk t).view.emb j)
        * S' (((cfg1.win 1).blk t).view.emb
            (ix4 (⟨(j 0).val, (j 0).isLt⟩ : Fin 16) (⟨(j 1).val, (j 1).isLt⟩ : Fin 8) (0 : Fin 1) (0 : Fin 1)))
      = scaled X S' (((cfg1.win 2).blk t).view.emb j) := by
  obtain ⟨a0, a1, a2, a3, b0, b1, b2, b3, c0, c1, c2, c3, ht⟩ := scale_index_maps t
  have hj0 : (j 0).val < 16 := (j 0).isLt
  have hj1 : (j 1).val < 8 := (j 1).isLt
  have hj2 : (j 2).val < 128 := (j 2).isLt
  have hj3 : (j 3).val < 128 := (j 3).isLt
  have h0 : ((cfg1.win 0).blk t).view.emb j = ((cfg1.win 2).blk t).view.emb j := by
    funext a; apply Fin.ext
    match a with
    | ⟨0, _⟩ => show win1_0.index t (0 : Fin 4) * 16 + 1 * (j 0).val = win1_2.index t (0 : Fin 4) * 16 + 1 * (j 0).val; omega
    | ⟨1, _⟩ => show win1_0.index t (1 : Fin 4) * 8 + 1 * (j 1).val = win1_2.index t (1 : Fin 4) * 8 + 1 * (j 1).val; omega
    | ⟨2, _⟩ => show win1_0.index t (2 : Fin 4) * 128 + 1 * (j 2).val = win1_2.index t (2 : Fin 4) * 128 + 1 * (j 2).val; omega
    | ⟨3, _⟩ => show win1_0.index t (3 : Fin 4) * 128 + 1 * (j 3).val = win1_2.index t (3 : Fin 4) * 128 + 1 * (j 3).val; omega
  have h1 : ((cfg1.win 1).blk t).view.emb
        (ix4 (⟨(j 0).val, (j 0).isLt⟩ : Fin 16) (⟨(j 1).val, (j 1).isLt⟩ : Fin 8) (0 : Fin 1) (0 : Fin 1))
      = ix4 (⟨((((cfg1.win 2).blk t).view.emb j) 0).val, ((((cfg1.win 2).blk t).view.emb j) 0).isLt⟩ : Fin 16)
          (⟨((((cfg1.win 2).blk t).view.emb j) 1).val, ((((cfg1.win 2).blk t).view.emb j) 1).isLt⟩ : Fin 256)
          (0 : Fin 1) (0 : Fin 1) := by
    funext a; apply Fin.ext
    match a with
    | ⟨0, _⟩ => show win1_1.index t (0 : Fin 4) * 16 + 1 * (j 0).val = win1_2.index t (0 : Fin 4) * 16 + 1 * (j 0).val; omega
    | ⟨1, _⟩ => show win1_1.index t (1 : Fin 4) * 8 + 1 * (j 1).val = win1_2.index t (1 : Fin 4) * 8 + 1 * (j 1).val; omega
    | ⟨2, _⟩ => show win1_1.index t (2 : Fin 4) * 1 + 1 * 0 = 0; omega
    | ⟨3, _⟩ => show win1_1.index t (3 : Fin 4) * 1 + 1 * 0 = 0; omega
  rw [h0, h1]

/-- What point t writes back is block t of `scaled` of the two input arrays as the region finds them. -/
theorem scale_written_back (c : Dev nD) (t : Fin cfg1.N) :
    (dat1 (F := Ideal) V c).flushed 2 t
      = ((cfg1.win 2).blk t).view.read (Elt Ideal) (scaled (V c main_arg0) (V c main_v21)) := by
  show (cfg1.win 2).cut (grid1.coords t) ((dat1 (F := Ideal) V c).after 2 t) = _
  rw [after1_2]
  unfold out1_2
  rw [View.canon_unit_zero zero_offsets4]
  simp only [View.ld_unit_zero (S := S16x8x128x128) zero_offsets4, View.ld_unit_zero (S := S16x8x1x1) zero_offsets4]
  rw [scale_payload_eq]
  funext j
  exact scale_block_eq (V c main_arg0) (V c main_v21) t j

/-- An index of the array is in point t's block iff each coordinate is in the block's range on its axis. -/
theorem mem_scale_block (t : Fin cfg1.N) (i : S16x256x128x128.Idx) :
    i ∈ ((cfg1.win 2).blk t).view.set ↔ ∀ a : Fin 4, win1_2.index t a * S16x8x128x128.size a ≤ (i a).val
      ∧ (i a).val < win1_2.index t a * S16x8x128x128.size a + S16x8x128x128.size a := by
  show i ∈ ((View.whole main_v22).slice (win1_2.rect t)).set ↔ _
  rw [View.set_slice_whole, Rect.mem_set_unit]
  exact Iff.rfl

/-- Every index of the output array is in some point's block: channel q lies in block q / 8. -/
theorem scale_blocks_cover (i : S16x256x128x128.Idx) :
    ∃ t : Fin cfg1.N, (cfg1.win 2).flush t = true ∧ i ∈ ((cfg1.win 2).blk t).view.set := by
  have hi0 : (i 0).val < 16 := (i 0).isLt
  have hi1 : (i 1).val < 256 := (i 1).isLt
  have hi2 : (i 2).val < 128 := (i 2).isLt
  have hi3 : (i 3).val < 128 := (i 3).isLt
  have hN : cfg1.N = 32 := N_1
  have hlt : (i 1).val / 8 < cfg1.N := by rw [hN]; omega
  obtain ⟨-, -, -, -, -, -, -, -, c0, c1, c2, c3, -⟩ := scale_index_maps ⟨(i 1).val / 8, hlt⟩
  have c1' : win1_2.index ⟨(i 1).val / 8, hlt⟩ (1 : Fin 4) = (i 1).val / 8 := c1
  refine ⟨⟨(i 1).val / 8, hlt⟩, flush1_2 _, ?_⟩
  rw [mem_scale_block]
  intro a
  match a with
  | ⟨0, _⟩ => show win1_2.index ⟨(i 1).val / 8, hlt⟩ (0 : Fin 4) * 16 ≤ (i 0).val ∧ (i 0).val < win1_2.index ⟨(i 1).val / 8, hlt⟩ (0 : Fin 4) * 16 + 16; omega
  | ⟨1, _⟩ => show win1_2.index ⟨(i 1).val / 8, hlt⟩ (1 : Fin 4) * 8 ≤ (i 1).val ∧ (i 1).val < win1_2.index ⟨(i 1).val / 8, hlt⟩ (1 : Fin 4) * 8 + 8; omega
  | ⟨2, _⟩ => show win1_2.index ⟨(i 1).val / 8, hlt⟩ (2 : Fin 4) * 128 ≤ (i 2).val ∧ (i 2).val < win1_2.index ⟨(i 1).val / 8, hlt⟩ (2 : Fin 4) * 128 + 128; omega
  | ⟨3, _⟩ => show win1_2.index ⟨(i 1).val / 8, hlt⟩ (3 : Fin 4) * 128 ≤ (i 3).val ∧ (i 3).val < win1_2.index ⟨(i 1).val / 8, hlt⟩ (3 : Fin 4) * 128 + 128; omega

/-- The output array after the 32 points is `scaled` of the two input arrays as the region finds them. -/
theorem scale_array_eq (c : Dev nD) :
    (dat1 (F := Ideal) V c).arrAt 2 cfg1.N = scaled (V c main_arg0) (V c main_v21) :=
  (dat1 (F := Ideal) V c).arrAt_eq_of_cover 2 (scaled (V c main_arg0) (V c main_v21)) (fun t _ => scale_written_back V c t) scale_blocks_cover

/-- After the 32 points the output array at (b, q, h, w) is x at (b, q, h, w) times s at (b, q, 0, 0). -/
theorem scale_array (c : Dev nD) (x : S16x256x128x128.Idx → EReal) (hx : V c main_arg0 = x)
    (s : S16x256x1x1.Idx → EReal) (hs : V c main_v21 = s) (b : Fin 16) (q : Fin 256) (h : Fin 128) (w : Fin 128) :
    (dat1 (F := Ideal) V c).arrAt 2 cfg1.N (ix4 b q h w) = x (ix4 b q h w) * s (ix4 b q (0 : Fin 1) (0 : Fin 1)) := by
  subst hx; subst hs
  exact congrFun (scale_array_eq V c) (ix4 b q h w)

end Cert.KernelIdeal.ScaleValue

end
-- ==== Proof.KernelValue.lean ====
import proofs.«106926_j14757507629900_2_alg».proof.Proof.KernelRun
import proofs.«106926_j14757507629900_2_alg».proof.Proof.HostMiddle
import proofs.«106926_j14757507629900_2_alg».proof.Proof.PoolLaw
import proofs.«106926_j14757507629900_2_alg».proof.Proof.PoolArray
import proofs.«106926_j14757507629900_2_alg».proof.Proof.ScaleArray
import Idealize.ShloMosaic.Lib.Pipeline.Value
import Idealize.ShloMosaic.Lib.ValueIdx

set_option maxRecDepth 16384

noncomputable section

namespace Cert.KernelIdeal.KernelValue

open Cert.KernelIdeal Cert.KernelIdeal.Gen
open Idealize.ShloMosaic Idealize.ShloMosaic.TcCoe Idealize.SL.Sem
open Idealize.ShloMosaic.Pipeline (Dat)
open Idealize.ShloMosaic.ValueIdx
open Cert.KernelIdeal.HostValue (gate excite v21_eq)

variable (m : (ℓ : Loc nD τ sig) → Buf (Elt Ideal) ℓ) (ρ : Dev nD → PrngReg)

/-- Equal factors on the right of a product of extended reals. -/
theorem mul_congr_right (x : EReal) {A B : EReal} (h : A = B) : x * A = x * B := by rw [h]

/-- The weight arguments are untouched by the first region: it stages the batch and writes the means only. -/
theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)

/-- The batch is as launched when the second region is entered: that region only stages it, and the fold at the end
    reads it back to the launch contents. -/
theorem V4_arg0 (c : Dev nD) : V4 m ρ c main_arg0 = m ((c : Thread nD τ).loc main_arg0) :=
  ((W5_arr m ρ c 0).trans (((dat1 (V4 m ρ) c).arrAt_in 0 rfl _).trans (A_eq1 (V4 m ρ) c 0))).symm.trans (W5_main_arg0 m ρ c)

/-- THE POOLED MEANS, the kernel's way and the reference's: the first region's output array, reshaped to
    [16,256], holds at image `b` and channel `q` the iterated sum of that channel's values times `2⁻¹⁴`, which is the
    sum over the two spatial axes divided by `16384`. -/
theorem pooled_eq (h' : Cert.PoolLaw.Sx.ReducesTo [2, 3] Cert.PoolLaw.Sp) (c : Dev nD) :
    (shapeCast S16x256 (W1 m ρ c (Proc.devRef .tc main_v0)) shapeCasts_S16x256x1x1_S16x256 : FVec Ideal S16x256 .f32)
      = fun j => Ideal.div (Ideal.hostReduceAdd h' (m ((c : Thread nD τ).loc main_arg0)) (Ideal.ofBits .f32 0x00000000#32) j)
          (Ideal.ofBits .f32 0x46800000#32) := by
  funext j
  obtain ⟨b, q, rfl⟩ : ∃ (b : Fin 16) (q : Fin 256), j = ix2 b q := ⟨j 0, j 1, eq_ix2 j⟩
  rw [shapeCast_apply _ _ (ix2 b q) (ix4 b q (0 : Fin 1) (0 : Fin 1)) (by
    rw [Shape.rowMajor_val_four, Shape.rowMajor_val_two]
    show ((b.val * 256 + q.val) * 1 + 0) * 1 + 0 = b.val * 256 + q.val
    omega)]
  refine ((congrFun (W1_arr m ρ c 1) _).trans ?_)
  rw [Cert.KernelIdeal.PoolValue.pool_array (V0 m ρ) c (m ((c : Thread nD τ).loc main_arg0)) rfl b q]
  exact Cert.PoolLaw.pool_law _ h' b q

/-- THE KERNEL'S RESULT: after the second region's 32 write-backs the result array is the specification of the
    launch contents — each value times the gate, at its image and channel, of the pooled means. -/
theorem result_eq (h' : Cert.PoolLaw.Sx.ReducesTo [2, 3] Cert.PoolLaw.Sp) (c : Dev nD) :
    W5 m ρ c (Proc.devRef .tc main_v22)
      = excite h' (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨b, q, h, w, rfl⟩ : ∃ (b : Fin 16) (q : Fin 256) (h : Fin 128) (w : Fin 128), i = ix4 b q h w :=
    ⟨i 0, i 1, i 2, i 3, eq_ix4 i⟩
  refine ((congrFun (W5_arr m ρ c 2) _).trans ?_)
  refine (Cert.KernelIdeal.ScaleValue.scale_array (V4 m ρ) c _ (V4_arg0 m ρ c) _ (v21_eq m ρ c) b q h w).trans ?_
  refine mul_congr_right _ ?_
  rw [shapeCast_apply _ _ (ix4 b q (0 : Fin 1) (0 : Fin 1)) (ix2 b q) (by
    rw [Shape.rowMajor_val_four, Shape.rowMajor_val_two]
    show b.val * 256 + q.val = ((b.val * 256 + q.val) * 1 + 0) * 1 + 0
    omega)]
  rw [pooled_eq m ρ h' c, W1_arg1, W1_arg2, W1_arg3, W1_arg4]

/-- The kernel's run with its result named: every weakly fair execution terminates with the result buffer at the
    specification of the launch contents, the arguments unchanged. -/
theorem run (h' : Cert.PoolLaw.Sx.ReducesTo [2, 3] Cert.PoolLaw.Sp) :
    θ_run defs (onTc (τ := τ) (main (F := Ideal))) ⟨m, fun _ => 0, ρ⟩ (fun r => ∀ c : Dev nD,
      r.2.mem ((c.tc : Thread nD τ).loc main_v22)
        = excite h' (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ h' c), (h c).2⟩)
    (Cert.KernelIdeal.RunValue.run_result (F := Ideal) m ρ)

end Cert.KernelIdeal.KernelValue

end
-- ==== Proof.RefValue.lean ====
import proofs.«106926_j14757507629900_2_alg».proof.Proof.Gen.ReferenceIdeal.Run
import proofs.«106926_j14757507629900_2_alg».proof.Proof.HostMiddle
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen
open Idealize.ShloMosaic Idealize.ShloMosaic.TcCoe Idealize.SL.Sem Idealize.ShloMosaic.StableHlo
open Idealize.ShloMosaic.ValueIdx
open Cert.KernelIdeal.HostValue (gate excite)

/-- The reference's pooled means: the sum over the two spatial axes divided by the broadcast `16384`. -/
def pooled (x : FVec Ideal S16x256x128x128 .f32) : FVec Ideal S16x256 .f32 :=
  Host.divf (Host.reduceAdd x (constant S_ .f32 0x00000000#32) reducesTo_S16x256x128x128_S16x256_d2_3 h_S_)
    (broadcastInDim S16x256 ![] bcast_S_S16x256 (constant S_ .f32 0x46800000#32))

/-- Read at an image and channel, that is the quotient of the extended reals the specification spells. -/
theorem pooled_eq (x : FVec Ideal S16x256x128x128 .f32) :
    pooled x = fun j => Ideal.div (Ideal.hostReduceAdd reducesTo_S16x256x128x128_S16x256_d2_3 x (Ideal.ofBits .f32 0x00000000#32) j)
      (Ideal.ofBits .f32 0x46800000#32) := rfl

/-- The reference's result term: the batch times the gate of the pooled means, the gate broadcast first to
    [16,256,1,1] and then over the two spatial axes. -/
def result (x : FVec Ideal S16x256x128x128 .f32) (w1 : FVec Ideal S16x256 .f32) (b1 : FVec Ideal S16 .f32)
    (w2 : FVec Ideal S256x16 .f32) (b2 : FVec Ideal S256 .f32) : FVec Ideal S16x256x128x128 .f32 :=
  mulf x (broadcastInDim S16x256x128x128 ![0, 1, 2, 3] bcast_S16x256x1x1_S16x256x128x128_0_1_2_3
    (broadcastInDim S16x256x1x1 ![0, 1] bcast_S16x256_S16x256x1x1_0_1 (gate (pooled x) w1 b1 w2 b2)))

/-- Index by index the reference's result is the specification: the two broadcasts read the gate at the index's
    image and channel. -/
theorem result_eq (x : FVec Ideal S16x256x128x128 .f32) (w1 : FVec Ideal S16x256 .f32) (b1 : FVec Ideal S16 .f32)
    (w2 : FVec Ideal S256x16 .f32) (b2 : FVec Ideal S256 .f32) :
    result x w1 b1 w2 b2 = excite reducesTo_S16x256x128x128_S16x256_d2_3 x w1 b1 w2 b2 := by
  funext i
  obtain ⟨b, q, h, w, rfl⟩ : ∃ (b : Fin 16) (q : Fin 256) (h : Fin 128) (w : Fin 128), i = ix4 b q h w :=
    ⟨i 0, i 1, i 2, i 3, eq_ix4 i⟩
  unfold result excite
  rw [mulf_apply, pooled_eq]
  refine congrArg (x (ix4 b q h w) * ·) ?_
  refine (broadcastInDim_apply _ _ _ (ix4 b q h w) (ix4 b q (0 : Fin 1) (0 : Fin 1)) (fun a => by
    match a with
    | ⟨0, _⟩ => rfl
    | ⟨1, _⟩ => rfl
    | ⟨2, _⟩ => rfl
    | ⟨3, _⟩ => rfl)).trans ?_
  exact broadcastInDim_apply _ _ _ (ix4 b q (0 : Fin 1) (0 : Fin 1)) (ix2 b q) (fun a => by
    match a with
    | ⟨0, _⟩ => rfl
    | ⟨1, _⟩ => rfl)

/-- The reference's run with its result named: every weakly fair execution terminates with the result buffer at
    `result` of the arguments' launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Cert.ReferenceIdeal.Value.run (F := Ideal) m ρ)

end Cert.ReferenceIdeal.RefValue

end
-- ==== Proof.lean ====
/- The proof of `Cert.Claim`: a squeeze-and-excitation block over a batch f32[16, 256, 128, 128].
   THE KERNEL runs two regions with host operations between them. Region 0 pools: over 16 points, one per group of 16
   channels, it sums each channel's 128 × 128 values — rows first, then columns — and multiplies by `2⁻¹⁴`. The host
   then reshapes the means to [16, 256] and computes the gate: a dense layer to 16 hidden units, the leaky rectifier of
   slope 0.01, a dense layer back to 256 channels, the logistic function. Region 1 scales: over 32 points, one per
   group of 8 channels, it multiplies each value by its image's and channel's gate.
   THE REFERENCE is jnp's: the mean over the two spatial axes as ONE sum from `0` divided by `16384`, the same gate
   (the same host operations with the same constants), the product with the gate broadcast over the spatial axes.
   AT THE IDEAL INSTANCE the two agree on every extended real: the gate is one term applied to the pooled means and
   is never opened; the pooled means agree because the iterated sum is the sum over the pairs (addition of extended
   reals is commutative and associative) and because dividing by the nonzero real `16384` is multiplying by
   `1 / 16384` at the infinities too (Proof/PoolLaw.lean). No finiteness of the inputs is used.
   The modules: Proof/PoolLaw.lean (the law), Proof/PoolArray.lean and Proof/ScaleArray.lean (each region's output
   array as one function of its input arrays), Proof/HostMiddle.lean (the gate, the specification, and the host
   operations between the regions read back), Proof/KernelRun.lean (the kernel's run with its result read),
   Proof/KernelValue.lean (the kernel's result is the specification), Proof/RefValue.lean (so is the reference's).
   The three frames are the generated ones; the idealization rewrote nothing, so `preserves` is trivial. -/
import proofs.«106926_j14757507629900_2_alg».proof.Defs
import proofs.«106926_j14757507629900_2_alg».proof.Proof.Gen.Kernel
import proofs.«106926_j14757507629900_2_alg».proof.Proof.Gen.Kernel.Skeleton
import proofs.«106926_j14757507629900_2_alg».proof.Proof.Gen.Kernel.Launch
import proofs.«106926_j14757507629900_2_alg».proof.Proof.Gen.Kernel.Points
import proofs.«106926_j14757507629900_2_alg».proof.Proof.Gen.Kernel.Frame
import proofs.«106926_j14757507629900_2_alg».proof.Proof.Gen.KernelIdeal
import proofs.«106926_j14757507629900_2_alg».proof.Proof.Gen.KernelIdeal.Skeleton
import proofs.«106926_j14757507629900_2_alg».proof.Proof.Gen.KernelIdeal.Launch
import proofs.«106926_j14757507629900_2_alg».proof.Proof.Gen.KernelIdeal.Points
import proofs.«106926_j14757507629900_2_alg».proof.Proof.Gen.KernelIdeal.Frame
import proofs.«106926_j14757507629900_2_alg».proof.Proof.Gen.ReferenceIdeal
import proofs.«106926_j14757507629900_2_alg».proof.Proof.Gen.Pre_finite_inputs
import proofs.«106926_j14757507629900_2_alg».proof.Proof.Gen.ReferenceIdeal.Run
import proofs.«106926_j14757507629900_2_alg».proof.Proof.Gen.ReferenceIdeal.Read
import proofs.«106926_j14757507629900_2_alg».proof.Proof.KernelValue
import proofs.«106926_j14757507629900_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged (the generated frame, at the word-level instance). -/
theorem frame_k : Cert.frame_Kernel := fun m ρ _ => Cert.Kernel.Gen.frame m ρ

/-- So does its idealization (the generated frame, at the ideal instance). -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at the specification `excite` of the arguments: the kernel by
    its two regions and the host operations between them, the reference by its composed term read at an index; the
    arguments agree, so the results are equal as extended reals, element by element. -/
theorem algebraic : Cert.algebraic_KernelIdeal_ReferenceIdeal := by
  intro m ρ m' ρ' _ hagree
  refine ⟨_, Cert.KernelIdeal.KernelValue.run m ρ Cert.ReferenceIdeal.Facts₀.reducesTo_S16x256x128x128_S16x256_d2_3, ?_⟩
  refine (θ_run Cert.ReferenceIdeal.defs _ _).mono (fun _ h c => ⟨(h c).1.trans ?_, (h c).2⟩)
    (Cert.ReferenceIdeal.RefValue.run m' ρ')
  rw [Cert.ReferenceIdeal.RefValue.result_eq, (hagree c).1, (hagree c).2.1, (hagree c).2.2.1, (hagree c).2.2.2.1,
    (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
